-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 20
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S100000x128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S128, .f32⟩
  | .local _ .vmem, ⟨10, _⟩ => ⟨S10000x128, .f32⟩
  | .local _ .vmem, ⟨11, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S100000x128, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.RunResult.lean ====
/-
  The idealized kernel's run with its result named.

  The program is two kernel regions with a stretch of host operations between them. Its run passes through four
  boundary states: the launch memory, the memory after the first region (the product array written block by block), the
  memory after the host stretch (the gathered and scattered sums), and the memory after the second region (the result
  array written block by block). Every weakly fair execution terminates without a fault in a state whose unscoped
  buffers hold the last boundary's contents; in particular the result buffer holds that boundary's contents at its
  reference, and the five argument arrays hold what they were launched with.
-/
import proofs.«137383_j84602265796922_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run_result : θ_run defs (onTc (τ := τ) (main (F := F))) ⟨m, fun _ => 0, ρ⟩ (fun r => ∀ c : Dev nD,
      r.2.mem ((c.tc : Thread nD τ).loc main_v11) = W3 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v11 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.RunValue

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«137383_j84602265796922_1_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.Product.lean ====
/-
  What the first region leaves in the product array.

  The region's grid has ten points. Point `t` fetches rows `10000·t … 10000·t + 9999` of the node-feature array and the
  whole weight matrix, multiplies them into a zero accumulator, and writes the `10000 × 128` product back over the same
  rows of the product array. At the extended reals the change of format before the product is the identity, so entry
  `(p, q)` of the block is `∑ k, x (10000·t + p, k) · w (k, q)`: block `t` of the whole product `x · w`. The ten blocks
  tile the array, so after the region the array holds the whole product — stated here against ANY record of dimension
  numbers for `[100000, 128] × [128, 128]` that contracts the left columns with the right rows and has no batch axis.
-/
import proofs.«137383_j84602265796922_1_alg».proof.Proof.Gen.KernelIdeal.Frame
import proofs.«137383_j84602265796922_1_alg».proof.Proof.LibHostDense
import Idealize.ShloMosaic.Lib.Pipeline.Value
import Idealize.ShloMosaic.Lib.ValueIdx

set_option maxRecDepth 16384

noncomputable section

namespace Cert.KernelIdeal.Product

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The body's accesses start at the origin of their buffers. -/
theorem origin2 : (![0, 0] : Fin 2 → Nat) = fun _ => 0 := funext fun a => by fin_cases a <;> rfl

/-- The body's product at `(p, q)` of its block: the sum over `k` of the row block's `(p, k)` times the matrix's `(k, q)`. -/
theorem product_at (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  exact Cert.LibPlainDot.matmul_plain_apply dot_S10000x128_S128x128_S10000x128_1_0_0_1_n_n rfl rfl rfl rfl rfl rfl none _ _ p q

/-- Where the three windows' blocks sit at point `t`: the row blocks at block row `t`, the matrix whole. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of rows starting at row `r0` times the matrix is that stretch of rows of the whole product. -/
theorem product_rows (d : DotDims S100000x128 S128x128 S100000x128)
    (hlc : d.lhsContracting = [1]) (hrc : d.rhsContracting = [0]) (hlb : d.lhsBatch = []) (hrb : d.rhsBatch = [])
    (hln : d.lhsNonContracting = [0]) (hrn : d.rhsNonContracting = [1])
    (X : FVec Ideal S100000x128 .f32) (W : FVec Ideal S128x128 .f32)
    (x0 : Vec Ideal S10000x128 .f32) (x1 : Vec Ideal S128x128 .f32) (r0 : ℕ) (hr : r0 + 10000 ≤ 100000)
    (hx0 : ∀ (p : Fin 10000) (k : Fin 128), x0 (ix2 p k) = X (ix2 (⟨r0 + p.val, by have := p.isLt; omega⟩ : Fin 100000) k))
    (hx1 : ∀ (k q : Fin 128), x1 (ix2 k q) = W (ix2 k q))
    (j : S10000x128.Idx) (i : S100000x128.Idx) (hi0 : (i 0).val = r0 + (j 0).val) (hi1 : (i 1).val = (j 1).val) :
    k0_pay1 (F := Ideal) x0 x1 j = Host.dotGeneral (F := Ideal) d none X W i := by
  obtain ⟨p, q, rfl⟩ : ∃ (p : Fin 10000) (q : Fin 128), j = ix2 p q := ⟨j 0, j 1, eq_ix2 j⟩
  have hi : i = ix2 (⟨r0 + p.val, by have := p.isLt; omega⟩ : Fin 100000) q := by
    funext a; apply Fin.ext
    match a with
    | ⟨0, _⟩ => exact hi0
    | ⟨1, _⟩ => exact hi1
  rw [hi, product_at, Cert.LibHostDense.hostDot_plain_apply d hlc hrc hlb hrb hln hrn]
  exact Finset.sum_congr rfl fun k _ => by rw [hx0, hx1]

/-- The whole product of a feature array and a weight matrix, under the dimension numbers `d`. -/
abbrev whole (d : DotDims S100000x128 S128x128 S100000x128) (X : FVec Ideal S100000x128 .f32)
    (W : FVec Ideal S128x128 .f32) : FVec Ideal S100000x128 .f32 :=
  Host.dotGeneral (F := Ideal) d none X W

section
variable (V : (c : Dev nD) → (b : Ref sig .tc) → Buf (Elt Ideal) ((c : Thread nD τ).loc b))

/-- What point `t` writes back is block `t` of the whole product of the arrays the region finds. -/
theorem flushed_eq (d : DotDims S100000x128 S128x128 S100000x128)
    (hlc : d.lhsContracting = [1]) (hrc : d.rhsContracting = [0]) (hlb : d.lhsBatch = []) (hrb : d.rhsBatch = [])
    (hln : d.lhsNonContracting = [0]) (hrn : d.rhsNonContracting = [1]) (c : Dev nD) (t : Fin cfg0.N) :
    (dat0 V c).flushed 2 t = ((cfg0.win 2).blk t).view.read (Elt Ideal) (whole d (V c main_arg0) (V c main_arg3)) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S128x128) origin2]
  obtain ⟨e0, e1, e2, e3, e4, e5⟩ := blocks_at t
  have ht : t.val < 10 := by have := t.isLt; have hN : cfg0.N = 10 := N_0; omega
  funext j
  show k0_pay1 (F := Ideal) (iblk0 V c 0 t) (iblk0 V c 1 t) j
    = Host.dotGeneral (F := Ideal) d none (V c main_arg0) (V c main_arg3) (((cfg0.win 2).blk t).view.emb j)
  refine product_rows d hlc hrc hlb hrb hln hrn (V c main_arg0) (V c main_arg3) (iblk0 V c 0 t) (iblk0 V c 1 t)
    (t.val * 10000) (by omega) ?_ ?_ j (((cfg0.win 2).blk t).view.emb j) ?_ ?_
  · intro p k
    show V c main_arg0 (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · intro k q
    show V c main_arg3 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show win0_2.index t (0 : Fin 2) * 10000 + 1 * (j 0).val = t.val * 10000 + (j 0).val; omega
  · show win0_2.index t (1 : Fin 2) * 128 + 1 * (j 1).val = (j 1).val; omega

/-- An index of the product array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v0).slice (win0_2.rect t)).set ↔ _
  rw [View.set_slice_whole, Rect.mem_set_unit]
  exact Iff.rfl

/-- Row `r` of the product array lies in the block of point `r / 10000`: the ten blocks tile the array. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < grid0.N := by rw [N_0]; omega
  obtain ⟨e0, e1, e2, e3, e4, e5⟩ := blocks_at ⟨(i 0).val / 10000, hN⟩
  refine ⟨⟨(i 0).val / 10000, hN⟩, flush0_2 _, ?_⟩
  rw [mem_block]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    have e4' : win0_2.index ⟨(i 0).val / 10000, hN⟩ (0 : Fin 2) = (i 0).val / 10000 := e4
    omega
  | ⟨1, _⟩ =>
    show win0_2.index ⟨(i 0).val / 10000, hN⟩ (1 : Fin 2) * 128 ≤ (i 1).val
      ∧ (i 1).val < win0_2.index ⟨(i 0).val / 10000, hN⟩ (1 : Fin 2) * 128 + 128
    omega

/-- After the region the product array holds the whole product of the arrays the region finds. -/
theorem product_array (d : DotDims S100000x128 S128x128 S100000x128)
    (hlc : d.lhsContracting = [1]) (hrc : d.rhsContracting = [0]) (hlb : d.lhsBatch = []) (hrb : d.rhsBatch = [])
    (hln : d.lhsNonContracting = [0]) (hrn : d.rhsNonContracting = [1]) (c : Dev nD) :
    (dat0 V c).arrAt 2 cfg0.N = whole d (V c main_arg0) (V c main_arg3) :=
  (dat0 V c).arrAt_eq_of_cover 2 _ (fun t _ => flushed_eq V d hlc hrc hlb hrb hln hrn c t) (cover)

end

end Cert.KernelIdeal.Product

end
-- ==== Proof.Layer.lean ====
/-
  The layer's last step as the host spells it, read at coordinates at the extended reals.

  For node features `x` and aggregated messages `agg` of shape `[M, N]` and a bias `b` of length `N`, the result is
  `x + max (agg + b, 0)`: the bias laid out as one row and repeated over the `M` rows, the zero a scalar repeated over
  the array. At `(p, q)` it reads `x (p, q) + max (agg (p, q) + b q) 0`, the zero kept as the word it is printed as.
-/
import proofs.«137383_j84602265796922_1_alg».proof.Proof.LibHostDense

noncomputable section

namespace Cert.Residual

open Idealize.ShloMosaic Idealize.ShloMosaic.ValueIdx

variable {M N : ℕ}

/-- `x + max (agg + b, 0)` over `[M, N]`, in the host's operations. -/
def layer (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (x agg : FVec Ideal ⟨2, ![M, N]⟩ .f32) (b : FVec Ideal ⟨1, ![N]⟩ .f32) : FVec Ideal ⟨2, ![M, N]⟩ .f32 :=
  addf x (maximumf (addf agg (broadcastInDim ⟨2, ![M, N]⟩ ![0, 1] h2 (broadcastInDim ⟨2, ![1, N]⟩ ![1] h1 b)))
    (broadcastInDim ⟨2, ![M, N]⟩ ![] h0 (constant (F := Ideal) ⟨0, ![]⟩ .f32 0x00000000#32)))

/-- The layer at `(p, q)`. -/
theorem layer_apply (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (x agg : FVec Ideal ⟨2, ![M, N]⟩ .f32) (b : FVec Ideal ⟨1, ![N]⟩ .f32) (p : Fin M) (q : Fin N) :
    layer h1 h2 h0 x agg b (ix2 p q)
      = x (ix2 p q) + max (agg (ix2 p q) + b (ix1 q)) (Ideal.ofBits .f32 0x00000000#32) := by
  unfold layer
  rw [addf_apply, maximumf_apply, addf_apply, Cert.LibHostDense.bcastRows_apply, Cert.LibHostDense.bcastRow_apply,
    Cert.LibHostDense.bcastScalar_apply, constant_apply]

end Cert.Residual

end
-- ==== Proof.Combine.lean ====
/-
  What the second region leaves in the result array.

  The region's grid has ten points. Point `t` fetches rows `10000·t … 10000·t + 9999` of the node features and of the
  aggregated messages and the whole bias, computes `x + max (agg + b, 0)` on the block — the bias cast to one row and
  repeated over the block's rows, the zero a repeated scalar — and writes the block back over the same rows of the result
  array. Entry `(p, q)` of the block is the layer's value at `(10000·t + p, q)`; the ten blocks tile the array, so after the
  region the array holds the layer of the arrays the region finds.
-/
import proofs.«137383_j84602265796922_1_alg».proof.Proof.Gen.KernelIdeal.Frame
import proofs.«137383_j84602265796922_1_alg».proof.Proof.Layer
import Idealize.ShloMosaic.Lib.Pipeline.Value
import Idealize.ShloMosaic.Lib.ValueIdx
import Idealize.ShloMosaic.Lib.ValueLayout

set_option maxRecDepth 16384

noncomputable section

namespace Cert.KernelIdeal.Combine

open Cert.KernelIdeal Cert.KernelIdeal.Gen
open Idealize.ShloMosaic Idealize.ShloMosaic.TcCoe Idealize.ShloMosaic.ValueIdx Idealize.SL.Sem
open Idealize.ShloMosaic.Pipeline (Dat)

/-- The body's accesses start at the origin of their buffers. -/
theorem origin2 : (![0, 0] : Fin 2 → Nat) = fun _ => 0 := funext fun a => by fin_cases a <;> rfl
theorem origin1 : (![0] : Fin 1 → Nat) = fun _ => 0 := funext fun a => by fin_cases a; rfl

/-- The body's value at `(p, q)` of its block. -/
theorem combine_at (x0 x1 : Vec Ideal S10000x128 .f32) (x2 : Vec Ideal S128 .f32) (p : Fin 10000) (q : Fin 128) :
    k1_pay1 (F := Ideal) x0 x1 x2 (ix2 p q)
      = x0 (ix2 p q) + max (x1 (ix2 p q) + x2 (ix1 q)) (Ideal.ofBits .f32 0x00000000#32) := by
  unfold k1_pay1
  rw [addf_apply, maximumf_apply, addf_apply, shapeCast_self, broadcastTo_1b_ab_apply, shapeCast_a_1a_apply, broadcast_apply]
  rfl

/-- Where the four windows' blocks sit at point `t`: the row blocks at block row `t`, the bias whole. -/
theorem blocks_at : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The body on blocks of rows starting at row `r0` is that stretch of rows of the layer of the whole arrays. -/
theorem combine_rows (h1 : (⟨1, ![128]⟩ : Shape).BroadcastsInDim ⟨2, ![1, 128]⟩ (![1] : Fin 1 → Fin 2))
    (h2 : (⟨2, ![1, 128]⟩ : Shape).BroadcastsInDim ⟨2, ![100000, 128]⟩ (![0, 1] : Fin 2 → Fin 2))
    (h0 : (⟨0, ![]⟩ : Shape).BroadcastsInDim ⟨2, ![100000, 128]⟩ (![] : Fin 0 → Fin 2))
    (X AGG : FVec Ideal S100000x128 .f32) (B : FVec Ideal S128 .f32)
    (x0 x1 : Vec Ideal S10000x128 .f32) (x2 : Vec Ideal S128 .f32) (r0 : ℕ) (hr : r0 + 10000 ≤ 100000)
    (hx0 : ∀ (p : Fin 10000) (q : Fin 128), x0 (ix2 p q) = X (ix2 (⟨r0 + p.val, by have := p.isLt; omega⟩ : Fin 100000) q))
    (hx1 : ∀ (p : Fin 10000) (q : Fin 128), x1 (ix2 p q) = AGG (ix2 (⟨r0 + p.val, by have := p.isLt; omega⟩ : Fin 100000) q))
    (hx2 : ∀ q : Fin 128, x2 (ix1 q) = B (ix1 q))
    (j : S10000x128.Idx) (i : S100000x128.Idx) (hi0 : (i 0).val = r0 + (j 0).val) (hi1 : (i 1).val = (j 1).val) :
    k1_pay1 (F := Ideal) x0 x1 x2 j = Cert.Residual.layer (M := 100000) (N := 128) h1 h2 h0 X AGG B i := by
  obtain ⟨p, q, rfl⟩ : ∃ (p : Fin 10000) (q : Fin 128), j = ix2 p q := ⟨j 0, j 1, eq_ix2 j⟩
  have hi : i = ix2 (⟨r0 + p.val, by have := p.isLt; omega⟩ : Fin 100000) q := by
    funext a; apply Fin.ext
    match a with
    | ⟨0, _⟩ => exact hi0
    | ⟨1, _⟩ => exact hi1
  rw [hi, combine_at, Cert.Residual.layer_apply, hx0, hx1, hx2]

/-- The layer of whole arrays of this program's extents. -/
abbrev whole (h1 : (⟨1, ![128]⟩ : Shape).BroadcastsInDim ⟨2, ![1, 128]⟩ (![1] : Fin 1 → Fin 2))
    (h2 : (⟨2, ![1, 128]⟩ : Shape).BroadcastsInDim ⟨2, ![100000, 128]⟩ (![0, 1] : Fin 2 → Fin 2))
    (h0 : (⟨0, ![]⟩ : Shape).BroadcastsInDim ⟨2, ![100000, 128]⟩ (![] : Fin 0 → Fin 2))
    (X AGG : FVec Ideal S100000x128 .f32) (B : FVec Ideal S128 .f32) : FVec Ideal S100000x128 .f32 :=
  Cert.Residual.layer (M := 100000) (N := 128) h1 h2 h0 X AGG B

section
variable (V : (c : Dev nD) → (b : Ref sig .tc) → Buf (Elt Ideal) ((c : Thread nD τ).loc b))

/-- What point `t` writes back is block `t` of the layer of the arrays the region finds. -/
theorem flushed_eq (h1 : (⟨1, ![128]⟩ : Shape).BroadcastsInDim ⟨2, ![1, 128]⟩ (![1] : Fin 1 → Fin 2))
    (h2 : (⟨2, ![1, 128]⟩ : Shape).BroadcastsInDim ⟨2, ![100000, 128]⟩ (![0, 1] : Fin 2 → Fin 2))
    (h0 : (⟨0, ![]⟩ : Shape).BroadcastsInDim ⟨2, ![100000, 128]⟩ (![] : Fin 0 → Fin 2)) (c : Dev nD) (t : Fin cfg1.N) :
    (dat1 V c).flushed 3 t = ((cfg1.win 3).blk t).view.read (Elt Ideal)
      (whole h1 h2 h0 (V c main_arg0) (V c main_v10) (V c main_arg4)) := by
  show (cfg1.win 3).cut (grid1.coords t) ((dat1 V c).after 3 t) = _
  rw [after1_3]
  unfold out1_3
  rw [View.canon_unit_zero origin2]
  simp only [View.ld_unit_zero (S := S10000x128) origin2, View.ld_unit_zero (S := S128) origin1]
  obtain ⟨e0, e1, e2, e3, e4, e5, e6⟩ := blocks_at t
  have ht : t.val < 10 := by have := t.isLt; have hN : cfg1.N = 10 := N_1; omega
  funext j
  show k1_pay1 (F := Ideal) (iblk1 V c 0 t) (iblk1 V c 1 t) (iblk1 V c 2 t) j
    = Cert.Residual.layer (M := 100000) (N := 128) h1 h2 h0 (V c main_arg0) (V c main_v10) (V c main_arg4) (((cfg1.win 3).blk t).view.emb j)
  refine combine_rows h1 h2 h0 (V c main_arg0) (V c main_v10) (V c main_arg4) (iblk1 V c 0 t) (iblk1 V c 1 t) (iblk1 V c 2 t)
    (t.val * 10000) (by omega) ?_ ?_ ?_ j (((cfg1.win 3).blk t).view.emb j) ?_ ?_
  · intro p q
    show V c main_arg0 (((cfg1.win 0).blk t).view.emb (ix2 p q)) = _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 128 + 1 * q.val = q.val; omega
  · intro p q
    show V c main_v10 (((cfg1.win 1).blk t).view.emb (ix2 p q)) = _
    refine congrArg _ (funext fun a => Fin.ext ?_)
    match a with
    | ⟨0, _⟩ => show win1_1.index t (0 : Fin 2) * 10000 + 1 * p.val = t.val * 10000 + p.val; omega
    | ⟨1, _⟩ => show win1_1.index t (1 : Fin 2) * 128 + 1 * q.val = q.val; omega
  · intro q
    show V c main_arg4 (((cfg1.win 2).blk t).view.emb (ix1 q)) = _
    refine congrArg _ (funext fun a => Fin.ext ?_)
    match a with
    | ⟨0, _⟩ => show win1_2.index t (0 : Fin 1) * 128 + 1 * q.val = q.val; omega
  · show win1_3.index t (0 : Fin 2) * 10000 + 1 * (j 0).val = t.val * 10000 + (j 0).val; omega
  · show win1_3.index t (1 : Fin 2) * 128 + 1 * (j 1).val = (j 1).val; omega

/-- An index of the result array is in point `t`'s block iff each coordinate is in the block's range on its axis. -/
theorem mem_block (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v11).slice (win1_3.rect t)).set ↔ _
  rw [View.set_slice_whole, Rect.mem_set_unit]
  exact Iff.rfl

/-- Row `r` of the result array lies in the block of point `r / 10000`: the ten blocks tile the array. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 10000 < grid1.N := by rw [N_1]; omega
  obtain ⟨e0, e1, e2, e3, e4, e5, e6⟩ := blocks_at ⟨(i 0).val / 10000, hN⟩
  refine ⟨⟨(i 0).val / 10000, hN⟩, flush1_3 _, ?_⟩
  rw [mem_block]
  intro a
  match a with
  | ⟨0, _⟩ =>
    show win1_3.index ⟨(i 0).val / 10000, hN⟩ (0 : Fin 2) * 10000 ≤ (i 0).val
      ∧ (i 0).val < win1_3.index ⟨(i 0).val / 10000, hN⟩ (0 : Fin 2) * 10000 + 10000
    have e5' : win1_3.index ⟨(i 0).val / 10000, hN⟩ (0 : Fin 2) = (i 0).val / 10000 := e5
    omega
  | ⟨1, _⟩ =>
    show win1_3.index ⟨(i 0).val / 10000, hN⟩ (1 : Fin 2) * 128 ≤ (i 1).val
      ∧ (i 1).val < win1_3.index ⟨(i 0).val / 10000, hN⟩ (1 : Fin 2) * 128 + 128
    omega

/-- After the region the result array holds the layer of the arrays the region finds. -/
theorem result_array (h1 : (⟨1, ![128]⟩ : Shape).BroadcastsInDim ⟨2, ![1, 128]⟩ (![1] : Fin 1 → Fin 2))
    (h2 : (⟨2, ![1, 128]⟩ : Shape).BroadcastsInDim ⟨2, ![100000, 128]⟩ (![0, 1] : Fin 2 → Fin 2))
    (h0 : (⟨0, ![]⟩ : Shape).BroadcastsInDim ⟨2, ![100000, 128]⟩ (![] : Fin 0 → Fin 2)) (c : Dev nD) :
    (dat1 V c).arrAt 3 cfg1.N = whole h1 h2 h0 (V c main_arg0) (V c main_v10) (V c main_arg4) :=
  (dat1 V c).arrAt_eq_of_cover 3 _ (fun t _ => flushed_eq V h1 h2 h0 c t) (cover)

end

end Cert.KernelIdeal.Combine

end
-- ==== Proof.Aggregate.lean ====
/-
  The aggregated messages, as the host stretch between the two regions computes them.

  From a `[100000, 128]` array `h` of transformed features and the two edge lists: a negative source number is wrapped
  by adding the node count, row `src e` of `h` is gathered for every edge `e`, and the gathered rows are scatter-added
  onto a zero array at the rows `dst e`. The stretch is kept as ONE function of `h` and the edge lists; nothing here
  opens the gather or the scatter. After the stretch the aggregate's buffer holds that function of the buffers the
  stretch reads, and the stretch writes no argument.
-/
import proofs.«137383_j84602265796922_1_alg».proof.Proof.Gen.KernelIdeal.Frame
import Idealize.ShloMosaic.Lib.StableHlo.Run
import Idealize.ShloMosaic.PureOps.Ideal

set_option maxRecDepth 16384

noncomputable section

namespace Cert.KernelIdeal.Aggregate

open Cert.KernelIdeal Cert.KernelIdeal.Gen
open Idealize.ShloMosaic Idealize.ShloMosaic.TcCoe Idealize.SL.Sem Idealize.ShloMosaic.StableHlo

/-- Wrap, gather, scatter-add onto zeros. -/
def aggregate (h : (⟨S100000x128, .f32⟩ : BufTy).Contents (Elt Ideal))
    (src dst : (⟨S1600000, .i32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

variable (m : (ℓ : Loc nD τ sig) → Buf (Elt Ideal) ℓ) (ρ : Dev nD → PrngReg)

/-- After the stretch the aggregate's buffer holds the aggregate of the product buffer and the two edge lists as the
    first region left them. -/
theorem aggregate_eq (c : Dev nD) :
    W2 m ρ c (Proc.devRef .tc main_v10)
      = aggregate (W1 m ρ c (Proc.devRef .tc main_v0)) (W1 m ρ c (Proc.devRef .tc main_arg1)) (W1 m ρ c (Proc.devRef .tc main_arg2)) := by
  show StableHlo.after hostOps1 (W1 m ρ c) (Proc.devRef .tc main_v10) = _
  after_results
  rfl

end Cert.KernelIdeal.Aggregate

end
-- ==== Proof.Whole.lean ====
/-
  The idealized kernel's result array as one function of its arguments.

  Walking the run's boundary states back to the launch memory: the second region leaves the layer
  `x + max (agg + b, 0)` of the buffers it finds; of those, the features and the bias are still the arguments (no host
  operation and no region writes them) and the aggregate's buffer holds the aggregate of the product buffer and the edge
  lists as the first region left them; the first region leaves the whole product `x · w` of the arguments in the product
  buffer and does not touch the edge lists. So the result is
  `x + max (aggregate (x · w) src dst + b, 0)`, for any record of the product's dimension numbers of the plain kind and any
  witnesses of the bias row's layout.
-/
import proofs.«137383_j84602265796922_1_alg».proof.Proof.Product
import proofs.«137383_j84602265796922_1_alg».proof.Proof.Combine
import proofs.«137383_j84602265796922_1_alg».proof.Proof.Aggregate

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The second region finds the features as launched. -/
theorem features_at_second (c : Dev nD) :
    W2 m ρ c (Proc.devRef .tc main_arg0) = m ((c : Thread nD τ).loc main_arg0) :=
  ((W3_arr m ρ c 0).trans (((dat1 (V2 m ρ) c).arrAt_in 0 rfl _).trans (A_eq1 (V2 m ρ) c 0))).symm.trans (W3_main_arg0 m ρ c)

/-- The second region finds the bias as launched. -/
theorem bias_at_second (c : Dev nD) :
    W2 m ρ c (Proc.devRef .tc main_arg4) = m ((c : Thread nD τ).loc main_arg4) :=
  ((W3_arr m ρ c 2).trans (((dat1 (V2 m ρ) c).arrAt_in 2 rfl _).trans (A_eq1 (V2 m ρ) c 2))).symm.trans (W3_main_arg4 m ρ c)

/-- The first region does not touch the edge lists. -/
theorem sources_after_first (c : Dev nD) :
    W1 m ρ c (Proc.devRef .tc main_arg1) = m ((c : Thread nD τ).loc main_arg1) :=
  W1_of_ne m ρ c main_arg1 (by decide)
theorem targets_after_first (c : Dev nD) :
    W1 m ρ c (Proc.devRef .tc main_arg2) = m ((c : Thread nD τ).loc main_arg2) :=
  W1_of_ne m ρ c main_arg2 (by decide)

/-- The first region leaves the whole product of the launched features and weights in the product buffer. -/
theorem product_after_first (d : DotDims S100000x128 S128x128 S100000x128)
    (hlc : d.lhsContracting = [1]) (hrc : d.rhsContracting = [0]) (hlb : d.lhsBatch = []) (hrb : d.rhsBatch = [])
    (hln : d.lhsNonContracting = [0]) (hrn : d.rhsNonContracting = [1]) (c : Dev nD) :
    W1 m ρ c (Proc.devRef .tc main_v0)
      = Product.whole d (m ((c : Thread nD τ).loc main_arg0)) (m ((c : Thread nD τ).loc main_arg3)) :=
  (W1_arr m ρ c 2).trans (Product.product_array (V0 m ρ) d hlc hrc hlb hrb hln hrn c)

/-- The result array after the run. -/
theorem result (d : DotDims S100000x128 S128x128 S100000x128)
    (hlc : d.lhsContracting = [1]) (hrc : d.rhsContracting = [0]) (hlb : d.lhsBatch = []) (hrb : d.rhsBatch = [])
    (hln : d.lhsNonContracting = [0]) (hrn : d.rhsNonContracting = [1])
    (h1 : (⟨1, ![128]⟩ : Shape).BroadcastsInDim ⟨2, ![1, 128]⟩ (![1] : Fin 1 → Fin 2))
    (h2 : (⟨2, ![1, 128]⟩ : Shape).BroadcastsInDim ⟨2, ![100000, 128]⟩ (![0, 1] : Fin 2 → Fin 2))
    (h0 : (⟨0, ![]⟩ : Shape).BroadcastsInDim ⟨2, ![100000, 128]⟩ (![] : Fin 0 → Fin 2)) (c : Dev nD) :
    W3 m ρ c (Proc.devRef .tc main_v11)
      = Combine.whole h1 h2 h0 (m ((c : Thread nD τ).loc main_arg0))
          (Aggregate.aggregate (Product.whole d (m ((c : Thread nD τ).loc main_arg0)) (m ((c : Thread nD τ).loc main_arg3)))
            (m ((c : Thread nD τ).loc main_arg1)) (m ((c : Thread nD τ).loc main_arg2)))
          (m ((c : Thread nD τ).loc main_arg4)) := by
  refine (W3_arr m ρ c 3).trans ?_
  rw [Combine.result_array (V2 m ρ) h1 h2 h0 c]
  show Combine.whole h1 h2 h0 (W2 m ρ c (Proc.devRef .tc main_arg0)) (W2 m ρ c (Proc.devRef .tc main_v10))
    (W2 m ρ c (Proc.devRef .tc main_arg4)) = _
  rw [features_at_second, bias_at_second, Aggregate.aggregate_eq, product_after_first m ρ d hlc hrc hlb hrb hln hrn c,
    sources_after_first, targets_after_first]

end Cert.KernelIdeal.Whole

end
-- ==== Proof.lean ====
/-
  A graph-convolution layer with a residual connection: for node features `x : [100000, 128]`, weights `w : [128, 128]`,
  a bias `b : [128]` and 1,600,000 edges `(src e, dst e)`,

      out (p, q) = x (p, q) + max (agg (p, q) + b q, 0),    agg = the sum, over the edges e with dst e = p, of row src e of x · w.

  The kernel computes `x · w` in a first region (ten blocks of 10,000 rows, the operands narrowed to bf16 before the
  product and accumulated in f32), gathers and scatter-adds the rows with the host's own operations, and applies the bias,
  the rectifier and the residual in a second region (ten blocks of 10,000 rows again). The reference is the same formula
  in host operations throughout. At the extended reals a change of float format is the identity, a product into a zero
  accumulator and the host's product are one sum over `k`, and the gather/scatter stretch is the same function of the
  product and the edge lists in both programs; so the two results are one function of the arguments. No algebraic law
  beyond these identifications is used, and the inputs' finiteness is never opened.

  The pieces: the kernel's run with its result named (RunResult); what each region leaves in its output array, block by
  block and then as a whole array (Product, Combine, over the layer's reading at coordinates in Layer); the host stretch
  as one function (Aggregate); the kernel's result as one function of the arguments (Whole). The reference's run is the
  generated one. Here: the two are the same term, and the five claims.
-/
import proofs.«137383_j84602265796922_1_alg».proof.Defs
import proofs.«137383_j84602265796922_1_alg».proof.Proof.Gen.Kernel
import proofs.«137383_j84602265796922_1_alg».proof.Proof.Gen.Kernel.Skeleton
import proofs.«137383_j84602265796922_1_alg».proof.Proof.Gen.Kernel.Launch
import proofs.«137383_j84602265796922_1_alg».proof.Proof.Gen.Kernel.Points
import proofs.«137383_j84602265796922_1_alg».proof.Proof.Gen.Kernel.Frame
import proofs.«137383_j84602265796922_1_alg».proof.Proof.Gen.KernelIdeal
import proofs.«137383_j84602265796922_1_alg».proof.Proof.Gen.KernelIdeal.Skeleton
import proofs.«137383_j84602265796922_1_alg».proof.Proof.Gen.KernelIdeal.Launch
import proofs.«137383_j84602265796922_1_alg».proof.Proof.Gen.KernelIdeal.Points
import proofs.«137383_j84602265796922_1_alg».proof.Proof.Gen.KernelIdeal.Frame
import proofs.«137383_j84602265796922_1_alg».proof.Proof.Gen.ReferenceIdeal
import proofs.«137383_j84602265796922_1_alg».proof.Proof.Gen.Pre_finite_inputs
import proofs.«137383_j84602265796922_1_alg».proof.Proof.Gen.ReferenceIdeal.Run
import proofs.«137383_j84602265796922_1_alg».proof.Proof.RunResult
import proofs.«137383_j84602265796922_1_alg».proof.Proof.Whole
import Idealize.ShloMosaic.Adequacy
import Idealize.ShloMosaic.Init

set_option maxRecDepth 16384

noncomputable section

namespace Cert.Proof

open Idealize.ShloMosaic Idealize.ShloMosaic.TcCoe Idealize.SL.Sem

/-- The layer of the arguments: `x + max (aggregate (x · w) src dst + b, 0)`, the product under the reference's dimension
    numbers and the bias row laid out as the reference lays it out. -/
abbrev value (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v11) :=
  Cert.KernelIdeal.Combine.whole Cert.ReferenceIdeal.Gen.bcast_S128_S1x128_1 Cert.ReferenceIdeal.Gen.bcast_S1x128_S100000x128_0_1
    Cert.ReferenceIdeal.Gen.bcast_S_S100000x128
    (m ((c.tc : Thread Cert.KernelIdeal.nD Cert.KernelIdeal.τ).loc Cert.KernelIdeal.main_arg0))
    (Cert.KernelIdeal.Aggregate.aggregate
      (Cert.KernelIdeal.Product.whole Cert.ReferenceIdeal.dot_S100000x128_S128x128_S100000x128_1_0_0_1_n_n
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
    (m ((c.tc : Thread Cert.KernelIdeal.nD Cert.KernelIdeal.τ).loc Cert.KernelIdeal.main_arg4))

/-- The idealized kernel's run ends with the result array at the layer of the arguments, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v11) = value m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun r h c => ⟨(h c).1.trans (Cert.KernelIdeal.Whole.result m ρ
        Cert.ReferenceIdeal.dot_S100000x128_S128x128_S100000x128_1_0_0_1_n_n rfl rfl rfl rfl rfl rfl
        Cert.ReferenceIdeal.Gen.bcast_S128_S1x128_1 Cert.ReferenceIdeal.Gen.bcast_S1x128_S100000x128_0_1
        Cert.ReferenceIdeal.Gen.bcast_S_S100000x128 c), (h c).2⟩)
    (Cert.KernelIdeal.RunValue.run_result (F := Ideal) m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the extended reals. -/
theorem preserves : Cert.preserves_Kernel_KernelIdeal := trivial

/-- From memories agreeing on the arguments both programs end with the layer of the arguments: the kernel by
    `kernel_run`; the reference's composed term, its arguments rewritten to the kernel's, is the same term. -/
theorem algebraic : Cert.algebraic_KernelIdeal_ReferenceIdeal := by
  intro m ρ m' ρ' _ hagree
  refine ⟨value m, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
